-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S128x101 : Shape := ⟨2, ![128, 101]⟩
abbrev S128 : Shape := ⟨1, ![128]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S128x101 : S_.BroadcastsInDim S128x101 (![] : Fin 0 → Fin S128x101.rank)
  reducesTo_S128x101_S_d0_1 : S128x101.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S128x4096 32) (main_arg1 : FVec F S128x4096 .f32) (main_arg2 : FVec F S128x101 .f32) (main_arg3 : FVec F S128 .f32) : IVec S_ 1 :=
  let main_v0 : FVec F S128x4096 .f32 := Host.absf main_arg1
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S128x101 .f32 := Host.absf main_arg2
  let main_cst_0 : FVec F S_ .f32 := constant S_ .f32 0x7F800000#32
  let main_v5 : FVec F S128x101 .f32 := broadcastInDim S128x101 ![] bcast_S_S128x101 main_cst_0
  let main_v6 : IVec S128x101 1 := cmpf .olt main_v4 main_v5
  let main_c_1 : IVec S_ 1 := constantI S_ 1 1#1
  let main_v7 : IVec S_ 1 := (fun x v => Host.reduce IntOp.andi x v reducesTo_S128x101_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S128x4096 : Shape := ⟨2, ![128, 4096]⟩
abbrev S128x101 : Shape := ⟨2, ![128, 101]⟩
abbrev S128 : Shape := ⟨1, ![128]⟩
abbrev S128x4095 : Shape := ⟨2, ![128, 4095]⟩
abbrev S128x1 : Shape := ⟨2, ![128, 1]⟩
abbrev S_ : Shape := ⟨0, ![]⟩
abbrev S101x128 : Shape := ⟨2, ![101, 128]⟩
abbrev S128x128 : Shape := ⟨2, ![128, 128]⟩
abbrev S1x128 : Shape := ⟨2, ![1, 128]⟩
abbrev S128x4096x128 : Shape := ⟨3, ![128, 4096, 128]⟩
abbrev S128x128x128 : Shape := ⟨3, ![128, 128, 128]⟩
abbrev S128x128x1 : Shape := ⟨3, ![128, 128, 1]⟩
abbrev S16384x128 : Shape := ⟨2, ![16384, 128]⟩
abbrev S1x1x128 : Shape := ⟨3, ![1, 1, 128]⟩

abbrev nBuf : Space → Nat
  | .hbm => 39
  | .vmem => 7
  | .smem => 0
  | _ => 0

abbrev bufTy : (tb : Table) → Fin (tcTables nBuf tb) → BufTy
  | .hbm, ⟨0, _⟩ => ⟨S128x4096, .i32⟩
  | .hbm, ⟨1, _⟩ => ⟨S128x4096, .f32⟩
  | .hbm, ⟨2, _⟩ => ⟨S128x101, .f32⟩
  | .hbm, ⟨3, _⟩ => ⟨S128, .f32⟩
  | .hbm, ⟨4, _⟩ => ⟨S128x4095, .f32⟩
  | .hbm, ⟨5, _⟩ => ⟨S128x4095, .f32⟩
  | .hbm, ⟨6, _⟩ => ⟨S128x4095, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x4096, .f32⟩
  | .hbm, ⟨11, _⟩ => ⟨S_, .f32⟩
  | .hbm, ⟨12, _⟩ => ⟨S128x4096, .f32⟩
  | .hbm, ⟨13, _⟩ => ⟨S128x4096, .f32⟩
  | .hbm, ⟨14, _⟩ => ⟨S_, .f32⟩
  | .hbm, ⟨15, _⟩ => ⟨S128x4096, .f32⟩
  | .hbm, ⟨16, _⟩ => ⟨S128x4096, .f32⟩
  | .hbm, ⟨17, _⟩ => ⟨S128x4096, .i32⟩
  | .hbm, ⟨18, _⟩ => ⟨S_, .i32⟩
  | .hbm, ⟨19, _⟩ => ⟨S128x4096, .i32⟩
  | .hbm, ⟨20, _⟩ => ⟨S128x4096, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S128x4096, .i32⟩
  | .hbm, ⟨25, _⟩ => ⟨S128x4096, .i32⟩
  | .hbm, ⟨26, _⟩ => ⟨S_, .i32⟩
  | .hbm, ⟨27, _⟩ => ⟨S128x4096, .i32⟩
  | .hbm, ⟨28, _⟩ => ⟨S128x4096, .i32⟩
  | .hbm, ⟨29, _⟩ => ⟨S101x128, .f32⟩
  | .hbm, ⟨30, _⟩ => ⟨S_, .i32⟩
  | .hbm, ⟨31, _⟩ => ⟨S_, .f32⟩
  | .hbm, ⟨32, _⟩ => ⟨S128x128, .f32⟩
  | .hbm, ⟨33, _⟩ => ⟨S128x128, .bf16⟩
  | .hbm, ⟨34, _⟩ => ⟨S128x128, .f32⟩
  | .hbm, ⟨35, _⟩ => ⟨S128x128, .f32⟩
  | .hbm, ⟨36, _⟩ => ⟨S128x128, .bf16⟩
  | .hbm, ⟨37, _⟩ => ⟨S1x128, .f32⟩
  | .hbm, ⟨38, _⟩ => ⟨S128x4096x128, .f32⟩
  | .local _ .vmem, ⟨0, _⟩ => ⟨S128x128, .i32⟩
  | .local _ .vmem, ⟨1, _⟩ => ⟨S128x128, .i32⟩
  | .local _ .vmem, ⟨2, _⟩ => ⟨S128x128, .bf16⟩
  | .local _ .vmem, ⟨3, _⟩ => ⟨S128x128, .bf16⟩
  | .local _ .vmem, ⟨4, _⟩ => ⟨S1x128, .f32⟩
  | .local _ .vmem, ⟨5, _⟩ => ⟨S128x128x128, .f32⟩
  | .local _ .vmem, ⟨6, _⟩ => ⟨S128x128x128, .f32⟩
  | _, _ => ⟨S128x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S128x4096_S128x4095_0_1 : S128x4096.Slices ![0, 1] S128x4095
  slices_S128x4096_S128x4095_0_0 : S128x4096.Slices ![0, 0] S128x4095
  slices_S128x4096_S128x1_0_0 : S128x4096.Slices ![0, 0] S128x1
  bcast_S_S128x1 : S_.BroadcastsInDim S128x1 (![] : Fin 0 → Fin S128x1.rank)
  concatenates_S128x1_S128x4095_S128x4096_d1 : Shape.Concatenates [S128x1, S128x4095] S128x4096 1
  bcast_S_S128x4096 : S_.BroadcastsInDim S128x4096 (![] : Fin 0 → Fin S128x4096.rank)
  transposes_S128x101_S101x128_1_0 : S128x101.Transposes [1, 0] S101x128
  pads_S101x128_S128x128_0270_000 : S101x128.Pads (![0, 0] : Fin 2 → Nat) ![27, 0] ![0, 0] S128x128
  h_S_ : 0 < S_.numel
  bitsLt_bf16_f32 : FTy.bits .bf16 < FTy.bits .f32
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S128x128x128_d2_w32 : S128x128x128.Iotas .tc 32 [2]
  shapeCasts_S128x128_S128x128x1 : S128x128.ShapeCasts S128x128x1
  broadcasts_S128x128x1_S128x128x128 : S128x128x1.Broadcasts S128x128x128
  natLt_1_32 : 1 < 32
  shapeCasts_S128x128x128_S16384x128 : S128x128x128.ShapeCasts S16384x128
  shapeCasts_S16384x128_S128x128x128 : S16384x128.ShapeCasts S128x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S128x128x128 : S1x1x128.Broadcasts S128x128x128
  inb_S128x128x128_S128x128x128_0_0_0 : ∀ a, (![0, 0, 0] : Fin 3 → Nat) a + S128x128x128.size a ≤ S128x128x128.size a
  h_S128x128x128 : 0 < S128x128x128.numel
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x4096.size a
  hwx0_0 : ∀ i : grid0.Coords, EltTy.bits .i32 = 32 ∨ (Rect.block (s := S128x4096) S128x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128x128.size a ≤ S128x4096x128.size a
  hwx0_4 : ∀ i : grid0.Coords, EltTy.bits .f32 = 32 ∨ (Rect.block (s := S128x4096x128) S128x128x128.size (cc0_transform_4 i) (hinb0_4 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v13) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x4096 : Shape := ⟨2, ![128, 4096]⟩
abbrev S128x101 : Shape := ⟨2, ![128, 101]⟩
abbrev S128 : Shape := ⟨1, ![128]⟩
abbrev S128x4095 : Shape := ⟨2, ![128, 4095]⟩
abbrev S128x1 : Shape := ⟨2, ![128, 1]⟩
abbrev S_ : Shape := ⟨0, ![]⟩
abbrev S101x128 : Shape := ⟨2, ![101, 128]⟩
abbrev S128x4096x1 : Shape := ⟨3, ![128, 4096, 1]⟩
abbrev S128x4096x128 : Shape := ⟨3, ![128, 4096, 128]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S128x4096, .i32⟩
  | .hbm, ⟨1, _⟩ => ⟨S128x4096, .f32⟩
  | .hbm, ⟨2, _⟩ => ⟨S128x101, .f32⟩
  | .hbm, ⟨3, _⟩ => ⟨S128, .f32⟩
  | .hbm, ⟨4, _⟩ => ⟨S128x4095, .f32⟩
  | .hbm, ⟨5, _⟩ => ⟨S128x4095, .f32⟩
  | .hbm, ⟨6, _⟩ => ⟨S128x4095, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x4096, .f32⟩
  | .hbm, ⟨11, _⟩ => ⟨S_, .f32⟩
  | .hbm, ⟨12, _⟩ => ⟨S128x4096, .f32⟩
  | .hbm, ⟨13, _⟩ => ⟨S128x4096, .f32⟩
  | .hbm, ⟨14, _⟩ => ⟨S_, .f32⟩
  | .hbm, ⟨15, _⟩ => ⟨S128x4096, .f32⟩
  | .hbm, ⟨16, _⟩ => ⟨S128x4096, .f32⟩
  | .hbm, ⟨17, _⟩ => ⟨S128x4096, .i32⟩
  | .hbm, ⟨18, _⟩ => ⟨S_, .i32⟩
  | .hbm, ⟨19, _⟩ => ⟨S128x4096, .i32⟩
  | .hbm, ⟨20, _⟩ => ⟨S128x4096, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S128x4096, .i32⟩
  | .hbm, ⟨25, _⟩ => ⟨S128x4096, .i32⟩
  | .hbm, ⟨26, _⟩ => ⟨S_, .i32⟩
  | .hbm, ⟨27, _⟩ => ⟨S128x4096, .i32⟩
  | .hbm, ⟨28, _⟩ => ⟨S128x4096, .i32⟩
  | .hbm, ⟨29, _⟩ => ⟨S101x128, .f32⟩
  | .hbm, ⟨30, _⟩ => ⟨S_, .i32⟩
  | .hbm, ⟨31, _⟩ => ⟨S128x4096, .i32⟩
  | .hbm, ⟨32, _⟩ => ⟨S128x4096, .i1⟩
  | .hbm, ⟨33, _⟩ => ⟨S_, .i32⟩
  | .hbm, ⟨34, _⟩ => ⟨S128x4096, .i32⟩
  | .hbm, ⟨35, _⟩ => ⟨S128x4096, .i32⟩
  | .hbm, ⟨36, _⟩ => ⟨S128x4096, .i32⟩
  | .hbm, ⟨37, _⟩ => ⟨S128x4096x1, .i32⟩
  | .hbm, ⟨38, _⟩ => ⟨S128x4096x128, .f32⟩
  | .hbm, ⟨39, _⟩ => ⟨S1x1x128, .f32⟩
  | .hbm, ⟨40, _⟩ => ⟨S128x4096x128, .f32⟩
  | .hbm, ⟨41, _⟩ => ⟨S128x4096x128, .f32⟩
  | _, _ => ⟨S128x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  slices_S128x4096_S128x4095_0_1 : S128x4096.Slices ![0, 1] S128x4095
  slices_S128x4096_S128x4095_0_0 : S128x4096.Slices ![0, 0] S128x4095
  slices_S128x4096_S128x1_0_0 : S128x4096.Slices ![0, 0] S128x1
  bcast_S_S128x1 : S_.BroadcastsInDim S128x1 (![] : Fin 0 → Fin S128x1.rank)
  concatenates_S128x1_S128x4095_S128x4096_d1 : Shape.Concatenates [S128x1, S128x4095] S128x4096 1
  bcast_S_S128x4096 : S_.BroadcastsInDim S128x4096 (![] : Fin 0 → Fin S128x4096.rank)
  transposes_S128x101_S101x128_1_0 : S128x101.Transposes [1, 0] S101x128
  bcast_S128x4096_S128x4096x1_0_1 : S128x4096.BroadcastsInDim S128x4096x1 (![0, 1] : Fin 2 → Fin S128x4096x1.rank)
  bcast_S128_S1x1x128_2 : S128.BroadcastsInDim S1x1x128 (![2] : Fin 1 → Fin S1x1x128.rank)
  bcast_S1x1x128_S128x4096x128_0_1_2 : S1x1x128.BroadcastsInDim S128x4096x128 (![0, 1, 2] : Fin 3 → Fin S128x4096x128.rank)
  gather_S101x128_S128x4096x1_S128x4096x128_2_0_n_n_0_2_1128_wf : GatherDims.WF S101x128 S128x4096x1 S128x4096x128 [2] [0] [] [0] [] 2 ![1, 128]

variable [Facts₀]

def gather_S101x128_S128x4096x1_S128x4096x128_2_0_n_n_0_2_1128 : GatherDims S101x128 S128x4096x1 S128x4096x128 where
  offsetDims := [2]
  collapsedSliceDims := [0]
  operandBatchingDims := []
  startIndicesBatchingDims := []
  startIndexMap := [0]
  indexVectorDim := 2
  sliceSizes := ![1, 128]
  wf := gather_S101x128_S128x4096x1_S128x4096x128_2_0_n_n_0_2_1128_wf

class Facts : Prop extends Facts₀ where

variable [Facts]
-- ==== Proof.LibOneHotSelect.lean ====
/-
  Selecting a table row by a one-hot product, and by a gather, read at an index.

  A word `w` compared for equality with each lane number `k`, the one-bit answer widened and converted to a float,
  is the weight `1` at the lane `k = w` and `0` at every other lane. On the extended reals `0 * x = 0` for every `x`
  (infinite ones too) and `1 * x = x`, so the sum over the lanes of weight times entry is the entry at lane `w`,
  whenever `w` is one of the lanes. The same entry is what a gather of whole rows reads when the start index,
  read signed and clamped into the table, is `w`.

  Also here: a word clipped into `[0, hi]` by signed maximum and minimum is a small natural number, and the two
  layout steps that spread an `[a, b]` array of words along a new last axis.
-/
import Idealize.ShloMosaic.Lib.Pipeline.Value
import Idealize.ShloMosaic.Lib.ValueIdx
import Idealize.ShloMosaic.PureOps.Ideal.Laws

namespace Cert.Lib.OneHotSelect

open Idealize.ShloMosaic Idealize.ShloMosaic.ValueIdx

/-! ## The one-hot weight -/

/-- The weight lane `k` gets from the word `w`: the comparison `w = k` as one bit, widened to 32 bits without
    sign, converted to a float. -/
noncomputable def hot (w : BitVec 32) (k : Nat) : EReal :=
  FloatOps.sitofp (F := Ideal) .f32 ((IntOp.cmpi .eq w (BitVec.ofNat 32 k)).setWidth 32)

/-- It is `1` at the lane whose number is the word and `0` elsewhere. -/
theorem hot_eq (w : BitVec 32) (k : Nat) (hk : k < 2 ^ 32) : hot w k = if w.toNat = k then (1 : EReal) else 0 := by
  have e : (w == BitVec.ofNat 32 k) = decide (w.toNat = k) := by
    by_cases h : w.toNat = k
    · have hw : w = BitVec.ofNat 32 k := BitVec.eq_of_toNat_eq (by rw [BitVec.toNat_ofNat, Nat.mod_eq_of_lt hk]; exact h)
      rw [decide_eq_true h, hw]; exact beq_self_eq_true _
    · have hw : w ≠ BitVec.ofNat 32 k := fun hw => h (by rw [hw, BitVec.toNat_ofNat, Nat.mod_eq_of_lt hk])
      rw [decide_eq_false h]; exact beq_false_of_ne hw
  show (((BitVec.setWidth 32 (BitVec.ofBool (w == BitVec.ofNat 32 k))).toInt : ℝ) : EReal) = _
  rw [e]
  by_cases h : w.toNat = k
  · rw [if_pos h, decide_eq_true h]
    show (((1 : ℤ) : ℝ) : EReal) = 1
    simp
  · rw [if_neg h, decide_eq_false h]
    show (((0 : ℤ) : ℝ) : EReal) = 0
    simp

/-- The one-hot product: the sum over the lanes of weight times entry is the entry at the word's lane. No
    finiteness is needed: `0 * x = 0` on the extended reals whatever `x` is. -/
theorem sum_hot_mul {n : Nat} (hn : n ≤ 2 ^ 32) (w : BitVec 32) (hw : w.toNat < n) (f : Fin n → EReal) :
    ∑ k : Fin n, hot w k.val * f k = f ⟨w.toNat, hw⟩ := by
  rw [Finset.sum_eq_single (⟨w.toNat, hw⟩ : Fin n)]
  · rw [hot_eq _ _ (by omega), if_pos rfl, one_mul]
  · intro b _ hb
    rw [hot_eq _ _ (by have := b.isLt; omega), if_neg (fun h => hb (Fin.ext h.symm)), zero_mul]
  · intro h; exact absurd (Finset.mem_univ _) h

/-- Against entries that are all zero the one-hot product is zero. -/
theorem sum_hot_mul_zero {n : Nat} (w : BitVec 32) (f : Fin n → EReal) (hf : ∀ k, f k = 0) :
    ∑ k : Fin n, hot w k.val * f k = 0 :=
  Finset.sum_eq_zero fun k _ => by rw [hf k, mul_zero]

/-! ## A word clipped into a range -/

/-- A word clipped from below at `0` and from above at `hi` (signed maximum, then signed minimum) is, read signed,
    the natural number it is read unsigned, and that number is at most `hi`. -/
theorem clip_range (hi v : BitVec 32) (hhi : hi.toNat < 2 ^ 31) :
    (IntOp.minsi hi (IntOp.maxsi 0#32 v)).toNat ≤ hi.toNat
      ∧ (IntOp.minsi hi (IntOp.maxsi 0#32 v)).toInt = ((IntOp.minsi hi (IntOp.maxsi 0#32 v)).toNat : ℤ) := by
  unfold IntOp.minsi IntOp.maxsi
  simp only [BitVec.slt, decide_eq_true_eq]
  have h0 : (0#32 : BitVec 32).toInt = 0 := by decide
  have hhiI : hi.toInt = (hi.toNat : ℤ) := by rw [BitVec.toInt_eq_toNat_cond]; rw [if_pos (by omega)]
  by_cases hv : v.toInt < (0#32 : BitVec 32).toInt
  · rw [if_pos hv]
    by_cases h2 : hi.toInt < (0#32 : BitVec 32).toInt
    · rw [if_pos h2]; exact ⟨le_refl _, hhiI⟩
    · rw [if_neg h2]; exact ⟨by show 0 ≤ _; omega, by decide⟩
  · rw [if_neg hv]
    have hvI : v.toInt = (v.toNat : ℤ) := by
      rw [BitVec.toInt_eq_toNat_cond] at hv ⊢
      split at hv
      · rename_i hlt; rw [if_pos hlt]
      · rw [h0] at hv; have := v.isLt; omega
    by_cases h2 : hi.toInt < v.toInt
    · rw [if_pos h2]; exact ⟨le_refl _, hhiI⟩
    · rw [if_neg h2]; exact ⟨by rw [hhiI, hvI] at h2; omega, hvI⟩

/-! ## Spreading an array of words along a new last axis -/

variable {α : Type}

/-- An `[a, b]` array cast to `[a, b, 1]` reads, at `(i, k, u)`, the operand at `(i, k)`: both have row-major
    position `i * b + k`, the unit coordinate `u` being `0`. -/
theorem shapeCast_ab_ab1_apply {a b : ℕ} (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An `[a, b, 1]` array broadcast to `[a, b, c]` reads, at `(i, k, j)`, the operand at `(i, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ v h (ix3 i k j) = v (ix3 i k (0 : Fin 1)) := by
  refine broadcastTo_apply v h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-! ## A gather of whole rows at an `[A, B, 1]` array of start indices -/

/-- The dimension numbers of `table[idx]` for a table `[N, D]` and an index array `[A, B]` (carried as
    `[A, B, 1]`): the row axis collapsed and addressed by the one component of the start index, the column axis kept
    whole as the result's last axis. -/
abbrev rowsDims (N D A B : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- The gather read at `(p, l, e)`: the table at column `e` of the row whose number is the start index
    `idx[p, l, 0]`, read signed and clamped into `[0, N - 1]`. -/
theorem gather_rows3_apply {N D A B w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (p : Fin A) (l : Fin B) (e : Fin D) :
    Host.gather (rowsDims N D A B wf) x idx (ix3 p l e)
      = x (ix2 (⟨min (idx (ix3 p l (0 : Fin 1))).toInt.toNat (N - 1), by omega⟩ : Fin N) e) := by
  unfold Host.gather
  refine congrArg x (funext fun a => Fin.ext ?_)
  match a with
  | ⟨0, _⟩ =>
    show (rowsDims N D A B wf).start (ix3 p l e) idx 0 + (rowsDims N D A B wf).batchCoord (ix3 p l e) 0
      + (rowsDims N D A B wf).offCoord (ix3 p l e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D A B wf).startIndexMap from List.mem_singleton.mpr rfl)]
    have hsi : (rowsDims N D A B wf).siIdx (ix3 p l e) ⟨List.idxOf (0 : Fin 2) (rowsDims N D A B wf).startIndexMap,
        List.idxOf_lt_length_iff.2 (List.mem_singleton.mpr rfl)⟩ = ix3 p l (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N D A B wf).start (ix3 p l e) idx 1 + (rowsDims N D A B wf).batchCoord (ix3 p l e) 1
      + (rowsDims N D A B wf).offCoord (ix3 p l e) 1 = e.val
    rw [GatherDims.batchCoord_eq_zero _ _ _ List.not_mem_nil]
    have hst : (rowsDims N D A B wf).start (ix3 p l e) idx 1 = 0 := by
      unfold GatherDims.start
      rw [dif_neg (show (1 : Fin 2) ∉ ([0] : List (Fin 2)) by decide)]
    rw [hst]
    simp only [Nat.add_zero, Nat.zero_add]
    rfl

end Cert.Lib.OneHotSelect
-- ==== Proof.Spec.lean ====
/-
  The function both programs compute, and the one algebraic step between the kernel's arrangement and it.

  With `idx` the `[128, 4096]` array of bucket words, `W` the `[128, 101]` weight and `b` the `[128]` bias, the result at
  `(p, l, e)` is `W[e, idx[p, l]] + b[e]` (the word clamped to the last row `100`, which a word already in `[0, 100]`
  does not feel).

  The kernel reaches it as a one-hot product over 128 lanes with the transposed weight padded by 27 zero rows,
  PLUS the same product with the table `pad - pad` (the residual of a change of format that is the identity on the
  extended reals), plus the bias. The first product selects row `idx[p, l]` with no finiteness needed, since
  `0 * x = 0` for every extended real. The second product is `0` exactly when `pad - pad = 0`, that is when the
  selected entry is finite: `⊤ - ⊤` is not `0`. So this step uses that the weight's entries are real numbers.
-/
import proofs.«138772_j46651934769846_2_alg».proof.Proof.LibOneHotSelect
import Idealize.ShloMosaic.Lib.ValueIdx
import Idealize.ShloMosaic.PureOps.Ideal.Laws

noncomputable section

namespace Cert.Spec

open Idealize.ShloMosaic Idealize.ShloMosaic.ValueIdx Cert.Lib.OneHotSelect

abbrev SIdx : Shape := ⟨2, ![128, 4096]⟩
abbrev SW : Shape := ⟨2, ![128, 101]⟩
abbrev SB : Shape := ⟨1, ![128]⟩
abbrev SOut : Shape := ⟨3, ![128, 4096, 128]⟩
abbrev STab : Shape := ⟨2, ![128, 128]⟩
abbrev SRow : Shape := ⟨2, ![1, 128]⟩

/-- The table row a bucket word selects: the word, clamped to the last row. -/
def row (w : BitVec 32) : Fin 101 := ⟨min w.toNat 100, by omega⟩

theorem row_of_le (w : BitVec 32) (h : w.toNat ≤ 100) : row w = ⟨w.toNat, by omega⟩ :=
  Fin.ext (Nat.min_eq_left h)

/-- The result at `(p, l, e)`: entry `(e, idx[p, l])` of the weight plus the bias at `e`. -/
def Gat (idx : SIdx.Idx → BitVec 32) (W : SW.Idx → EReal) (b : SB.Idx → EReal) (p : Fin 128) (l : Fin 4096) (e : Fin 128) :
    EReal :=
  W (ix2 e (row (idx (ix2 p l)))) + b (ix1 e)

/-- The result array. -/
def G (idx : SIdx.Idx → BitVec 32) (W : SW.Idx → EReal) (b : SB.Idx → EReal) : SOut.Idx → EReal :=
  fun i => Gat idx W b (i 0) (i 1) (i 2)

theorem G_apply (idx : SIdx.Idx → BitVec 32) (W : SW.Idx → EReal) (b : SB.Idx → EReal) (p : Fin 128) (l : Fin 4096)
    (e : Fin 128) : G idx W b (ix3 p l e) = Gat idx W b p l e := rfl

/-- The kernel's arrangement at `(p, l, e)`, over the arrays its windows stage: the one-hot product of word `(p, l)`
    with column `e` of each of two `[128, 128]` tables, plus a bias row. -/
def Kat (idx : SIdx.Idx → BitVec 32) (hi lo : STab.Idx → EReal) (b2 : SRow.Idx → EReal) (p : Fin 128) (l : Fin 4096)
    (e : Fin 128) : EReal :=
  (∑ k : Fin 128, hot (idx (ix2 p l)) k.val * hi (ix2 k e))
    + (∑ k : Fin 128, hot (idx (ix2 p l)) k.val * lo (ix2 k e)) + b2 (ix2 (0 : Fin 1) e)

/-- The kernel's arrangement as an array. -/
def K (idx : SIdx.Idx → BitVec 32) (hi lo : STab.Idx → EReal) (b2 : SRow.Idx → EReal) : SOut.Idx → EReal :=
  fun i => Kat idx hi lo b2 (i 0) (i 1) (i 2)

theorem K_apply (idx : SIdx.Idx → BitVec 32) (hi lo : STab.Idx → EReal) (b2 : SRow.Idx → EReal) (p : Fin 128)
    (l : Fin 4096) (e : Fin 128) : K idx hi lo b2 (ix3 p l e) = Kat idx hi lo b2 p l e := rfl

/-- THE LAW. For bucket words in `[0, 100]`, a first table whose rows below 101 are the weight's columns, a second
    table that vanishes on those rows (the weight being finite there), and the bias laid as a row, the kernel's
    arrangement is the result. -/
theorem K_eq_G (idx : SIdx.Idx → BitVec 32) (hi lo : STab.Idx → EReal) (b2 : SRow.Idx → EReal)
    (W : SW.Idx → EReal) (b : SB.Idx → EReal)
    (hidx : ∀ i, (idx i).toNat ≤ 100)
    (hhi : ∀ (k : Fin 128) (e : Fin 128) (hk : k.val < 101), hi (ix2 k e) = W (ix2 e ⟨k.val, hk⟩))
    (hlo : ∀ (k : Fin 128) (e : Fin 128), k.val < 101 → lo (ix2 k e) = 0)
    (hb : ∀ e : Fin 128, b2 (ix2 (0 : Fin 1) e) = b (ix1 e)) :
    K idx hi lo b2 = G idx W b := by
  funext i
  obtain ⟨p, l, e, rfl⟩ : ∃ (p : Fin 128) (l : Fin 4096) (e : Fin 128), i = ix3 p l e := ⟨i 0, i 1, i 2, eq_ix3 i⟩
  rw [K_apply, G_apply]
  unfold Kat Gat
  have hw := hidx (ix2 p l)
  have hw128 : (idx (ix2 p l)).toNat < 128 := by omega
  rw [sum_hot_mul (by norm_num) _ hw128, sum_hot_mul (by norm_num) _ hw128, hhi _ e (by show (idx (ix2 p l)).toNat < 101; omega),
    hlo _ e (by show (idx (ix2 p l)).toNat < 101; omega), add_zero, hb e, row_of_le _ hw]

end Cert.Spec

end
-- ==== Proof.Windows.lean ====
/-
  What the kernel's four input windows stage, as functions of the argument arrays.

  Before the kernel starts the program computes, with whole-array operations: the bucket words (the same chain of
  operations the reference applies to the timestamps), the weight transposed and padded with 27 zero rows to
  `[128, 128]`, that table minus itself taken through a change of float format (the identity on extended reals),
  and the bias laid out as one row.
-/
import proofs.«138772_j46651934769846_2_alg».proof.Proof.Gen.KernelIdeal.Frame
import proofs.«138772_j46651934769846_2_alg».proof.Proof.Gen.ReferenceIdeal.Read
import Idealize.ShloMosaic.Lib.StableHlo.Run
import Idealize.ShloMosaic.Lib.KernelVsHost
import Idealize.ShloMosaic.Lib.ValueLayout
import Idealize.ShloMosaic.Lib.ValueIdx
import Idealize.ShloMosaic.PureOps.Ideal.Laws

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The weight transposed to `[101, 128]` and padded below with 27 rows of the converted integer `0`. -/
def padded (W : FVec Ideal S128x101 .f32) : FVec Ideal S128x128 .f32 :=
  pad S128x128 ![0, 0] ![27, 0] ![0, 0] (transpose S101x128 [1, 0] W transposes_S128x101_S101x128_1_0)
    (sitofp (F := Ideal) .f32 (constantI S_ 32 0#32)) pads_S101x128_S128x128_0270_000 h_S_

/-- Row `k < 101` of the padded table is column `k` of the weight. -/
theorem padded_of_lt (W : FVec Ideal S128x101 .f32) (k e : Fin 128) (hk : k.val < 101) :
    padded W (ix2 k e) = W (ix2 e (⟨k.val, hk⟩ : Fin 101)) := by
  unfold padded
  refine (pad_apply_of_inside ![0, 0] ![27, 0] ![0, 0] _ _ pads_S101x128_S128x128_0270_000 h_S_ (ix2 k e)
    (ix2 (⟨k.val, hk⟩ : Fin 101) e) (fun a => ?_)).trans ?_
  · match a with
    | ⟨0, _⟩ => show k.val = 0 + k.val * (0 + 1); omega
    | ⟨1, _⟩ => show e.val = 0 + e.val * (0 + 1); omega
  · exact transpose_ix2_apply W transposes_S128x101_S101x128_1_0 (⟨k.val, hk⟩ : Fin 101) e

/-! ## The windows' arrays as the region finds them -/

/-- Window 0: the bucket words, the reference's own chain of operations applied to the timestamps. -/
theorem V_idx (c : Dev nD) : (V m c main_v13 : S128x4096.Idx → BitVec 32)
    = Cert.ReferenceIdeal.Read.val_main_v13 (F := Ideal) (m ((c.tc : Thread nD τ).loc main_arg1)) := by
  dsimp only [Gen.V]
  simp only [hostOps0, hostOps0_1, hostOps0_2, hostOps0_3, hostOps0_4, List.flatten_cons, List.flatten_nil,
    List.append_nil, List.cons_append, List.nil_append]
  after_results
  rfl

/-- Window 1: the padded table (through a change of format). -/
theorem V_hi (c : Dev nD) : (V m c main_v16 : S128x128.Idx → EReal)
    = truncf .bf16 (padded (m ((c.tc : Thread nD τ).loc main_arg2))) bitsLt_bf16_f32 := by
  dsimp only [Gen.V]
  simp only [hostOps0, hostOps0_1, hostOps0_2, hostOps0_3, hostOps0_4, List.flatten_cons, List.flatten_nil,
    List.append_nil, List.cons_append, List.nil_append]
  after_results
  rfl

/-- Window 2: the padded table minus itself taken through two changes of format. -/
theorem V_lo (c : Dev nD) : (V m c main_v19 : S128x128.Idx → EReal)
    = truncf .bf16 (subf (padded (m ((c.tc : Thread nD τ).loc main_arg2)))
        (extf .f32 (truncf .bf16 (padded (m ((c.tc : Thread nD τ).loc main_arg2))) bitsLt_bf16_f32) bitsLt_bf16_f32))
        bitsLt_bf16_f32 := by
  dsimp only [Gen.V]
  simp only [hostOps0, hostOps0_1, hostOps0_2, hostOps0_3, hostOps0_4, List.flatten_cons, List.flatten_nil,
    List.append_nil, List.cons_append, List.nil_append]
  after_results
  rfl

/-- Window 3: the bias as a `[1, 128]` row. -/
theorem V_bias (c : Dev nD) : (V m c main_v20 : S1x128.Idx → EReal)
    = shapeCast S1x128 (m ((c.tc : Thread nD τ).loc main_arg3)) shapeCasts_S128_S1x128 := by
  dsimp only [Gen.V]
  simp only [hostOps0, hostOps0_1, hostOps0_2, hostOps0_3, hostOps0_4, List.flatten_cons, List.flatten_nil,
    List.append_nil, List.cons_append, List.nil_append]
  after_results
  rfl

/-! ## Read at an index -/

/-- The first table at row `k < 101`: the weight's column `k`. -/
theorem hi_apply (c : Dev nD) (k e : Fin 128) (hk : k.val < 101) :
    (V m c main_v16 : S128x128.Idx → EReal) (ix2 k e)
      = (m ((c.tc : Thread nD τ).loc main_arg2) : S128x101.Idx → EReal) (ix2 e (⟨k.val, hk⟩ : Fin 101)) := by
  rw [V_hi]
  exact padded_of_lt _ k e hk

/-- The second table at row `k < 101` vanishes where the weight is a real number: `r - r = 0`. -/
theorem lo_apply (c : Dev nD) (k e : Fin 128) (hk : k.val < 101)
    (hfin : ∃ r : ℝ, (m ((c.tc : Thread nD τ).loc main_arg2) : S128x101.Idx → EReal) (ix2 e (⟨k.val, hk⟩ : Fin 101)) = (r : EReal)) :
    (V m c main_v19 : S128x128.Idx → EReal) (ix2 k e) = (0 : EReal) := by
  rw [V_lo]
  show padded (m ((c.tc : Thread nD τ).loc main_arg2)) (ix2 k e) - padded (m ((c.tc : Thread nD τ).loc main_arg2)) (ix2 k e) = 0
  rw [padded_of_lt _ k e hk]
  obtain ⟨r, hr⟩ := hfin
  rw [hr, ← EReal.coe_sub, sub_self, EReal.coe_zero]

/-- The bias row at `(0, e)`: the bias at `e`. -/
theorem bias_apply (c : Dev nD) (e : Fin 128) :
    (V m c main_v20 : S1x128.Idx → EReal) (ix2 (0 : Fin 1) e)
      = (m ((c.tc : Thread nD τ).loc main_arg3) : S128.Idx → EReal) (ix1 e) := by
  rw [V_bias]
  exact shapeCast_a_1a_apply _ shapeCasts_S128_S1x128 (0 : Fin 1) e

end Cert.KernelIdeal.Staged

end
-- ==== Proof.LibLayout3.lean ====
/-
  Rank-3 layout operations read at an index given by coordinates.

  A shape cast keeps the row-major position of an element, and a broadcast reads coordinate 0 on each unit
  axis of its operand. The lemmas below spell this out, for indices written by their coordinates, in the cases
  an outer product of two row blocks flattened for a matrix product needs:
  * inserting a unit axis in the middle, `[a, c] → [a, 1, c]`;
  * flattening the two leading axes, `[a, b, c] → [a * b, c]` (row `i * b + k` is the pair `(i, k)`), and back;
  * stretching a unit axis, `[a, 1, c] → [a, b, c]`, `[1, b, c] → [a, b, c]`, `[1, 1, c] → [a, b, c]`.
-/
import Idealize.ShloMosaic.Lib.Pipeline.Value
import Idealize.ShloMosaic.Lib.ValueIdx

namespace Cert.Layout3

open Idealize.ShloMosaic Idealize.ShloMosaic.ValueIdx

variable {α : Type}

/-! ## Shape casts -/

/-- An `[a, c]` array cast to `[a, 1, c]` reads, at `(i, u, j)`, the operand at `(i, j)`: both have row-major
    position `i * c + j`, the unit coordinate `u` being `0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, c]` array cast to `[m, c]` reads, at `(r, j)` with `r = i * b + k`, the operand at `(i, k, j)`: both have
    row-major position `(i * b + k) * c + j`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (j : Fin c) (i : Fin a) (k : Fin b)
    (hr : r.val = i.val * b + k.val) :
    shapeCast ⟨2, ![m, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[m, c]` array cast to `[a, b, c]` reads, at `(i, k, j)`, the operand at `(r, j)` with `r = i * b + k`. -/
theorem shapeCast_mc_abc_apply {a b c m : ℕ} (x : (⟨2, ![m, c]⟩ : Shape).Idx → α)
    (h : (⟨2, ![m, c]⟩ : Shape).ShapeCasts ⟨3, ![a, b, c]⟩) (i : Fin a) (k : Fin b) (j : Fin c) (r : Fin m)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-! ## Broadcasts along unit axes -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Cert.Layout3
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Payload.lean ====
/-
  The kernel body's stored value read at one index.

  At grid point `t` the body holds a `[128, 128]` block of bucket words, two `[128, 128]` weight tables and a
  `[1, 128]` bias row. It compares every word with the lane numbers `0 … 127`, multiplies the resulting one-hot rows
  (flattened to `[16384, 128]`) with each table, adds the two products, and adds the bias along the last axis. Read
  at `(p, q, e)` this is: the one-hot product of word `(p, q)` with column `e` of the first table, plus the same with the
  second table, plus the bias at `e`.
-/
import proofs.«138772_j46651934769846_2_alg».proof.Proof.Gen.KernelIdeal.Skeleton
import proofs.«138772_j46651934769846_2_alg».proof.Proof.LibLayout3
import proofs.«138772_j46651934769846_2_alg».proof.Proof.LibSplitContraction
import proofs.«138772_j46651934769846_2_alg».proof.Proof.LibOneHotSelect
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open Cert.Lib.OneHotSelect Cert.Layout3 Cert.Lib.SplitContraction

/-- The matrix products' dimension record: rows by the contracted axis, the contracted axis by columns. -/
abbrev D := dot_S16384x128_S128x128_S16384x128_1_0_0_1_n_n

theorem D_rank : D.contr.rank = 1 := rfl
theorem D_size : D.contr.size ⟨0, by rw [D_rank]; exact Nat.one_pos⟩ = 128 := rfl
theorem D_l0 (j : S16384x128.Idx) (q : D.contr.Idx) : (D.lhsIdx j q 0).val = (j 0).val := rfl
theorem D_l1 (j : S16384x128.Idx) (q : D.contr.Idx) : (D.lhsIdx j q 1).val = (q ⟨0, by rw [D_rank]; exact Nat.one_pos⟩).val :=
  D.lhsIdx_val_of_single (cl := 1) rfl j q
theorem D_r0 (j : S16384x128.Idx) (q : D.contr.Idx) : (D.rhsIdx j q 0).val = (q ⟨0, by rw [D_rank]; exact Nat.one_pos⟩).val :=
  D.rhsIdx_val_of_single (cr := 0) rfl j q
theorem D_r1 (j : S16384x128.Idx) (q : D.contr.Idx) : (D.rhsIdx j q 1).val = (j 1).val := rfl

/-- The one-hot rows, flattened: row `p * 128 + q`, lane `k`, is the weight lane `k` gets from word `(p, q)`. -/
theorem onehot_at (x0 : IVec S128x128 32) (p q k : Fin 128) (r : Fin 16384) (hr : r.val = p.val * 128 + q.val) :
    (shapeCast S16384x128 (truncf .bf16 (sitofp (F := Ideal) .f32 (extui 32 (cmpi .eq
        (broadcastTo S128x128x128 (shapeCast S128x128x1 (shapeCast S128x128 x0 shapeCasts_S128x128_S128x128)
          shapeCasts_S128x128_S128x128x1) broadcasts_S128x128x1_S128x128x128)
        (iota .tc S128x128x128 32 [2] iota_S128x128x128_d2_w32)) natLt_1_32)) bitsLt_bf16_f32)
      shapeCasts_S128x128x128_S16384x128 : FVec Ideal S16384x128 .bf16) (ix2 r k) = hot (x0 (ix2 p q)) k.val := by
  refine (shapeCast_abc_mc_apply _ shapeCasts_S128x128x128_S16384x128 r k p q hr).trans ?_
  show FloatOps.sitofp (F := Ideal) .f32 ((IntOp.cmpi .eq
      (broadcastTo S128x128x128 (shapeCast S128x128x1 (shapeCast S128x128 x0 shapeCasts_S128x128_S128x128)
          shapeCasts_S128x128_S128x128x1) broadcasts_S128x128x1_S128x128x128 (ix3 p q k))
      (iota .tc S128x128x128 32 [2] iota_S128x128x128_d2_w32 (ix3 p q k))).setWidth 32) = _
  rw [broadcastTo_ab1_abc_apply _ broadcasts_S128x128x1_S128x128x128 p q k,
    shapeCast_ab_ab1_apply _ shapeCasts_S128x128_S128x128x1 p q (0 : Fin 1),
    shapeCast_self, iota_single_apply]
  rfl

/-- THE STORED VALUE AT `(p, q, e)`. -/
theorem pay_apply (x0 : IVec S128x128 32) (x1 x2 : FVec Ideal S128x128 .bf16) (x3 : FVec Ideal S1x128 .f32)
    (p q e : Fin 128) :
    k0_pay1 (F := Ideal) x0 x1 x2 x3 (ix3 p q e)
      = (∑ k : Fin 128, hot (x0 (ix2 p q)) k.val * x1 (ix2 k e))
        + (∑ k : Fin 128, hot (x0 (ix2 p q)) k.val * x2 (ix2 k e)) + x3 (ix2 (0 : Fin 1) e) := by
  have hr : (⟨p.val * 128 + q.val, by have := p.isLt; have := q.isLt; omega⟩ : Fin 16384).val = p.val * 128 + q.val := rfl
  unfold k0_pay1
  refine congrArg₂ (· + ·) ?_ ?_
  · refine (shapeCast_mc_abc_apply _ shapeCasts_S16384x128_S128x128x128 p q e _ hr).trans ?_
    refine congrArg₂ (· + ·) ?_ ?_
    · refine (matmul_zero_at D D_rank D_size D_l0 D_l1 D_r0 D_r1 none _ _ _ e).trans ?_
      refine Finset.sum_congr rfl fun k _ => ?_
      rw [onehot_at x0 p q k _ hr, shapeCast_self]
    · refine (matmul_zero_at D D_rank D_size D_l0 D_l1 D_r0 D_r1 none _ _ _ e).trans ?_
      refine Finset.sum_congr rfl fun k _ => ?_
      rw [onehot_at x0 p q k _ hr, shapeCast_self]
  · refine (broadcastTo_11c_abc_apply _ broadcasts_S1x1x128_S128x128x128 p q e).trans ?_
    refine (shapeCast_ac_a1c_apply _ shapeCasts_S1x128_S1x1x128 (0 : Fin 1) (0 : Fin 1) e).trans ?_
    rw [shapeCast_self]

end Cert.KernelIdeal.Body

end
-- ==== Proof.Cover.lean ====
/-
  From what each grid point writes back to the whole output array.

  Grid point `t` (of 32) works on columns `128 t … 128 t + 127` of the bucket words, on the two whole tables and the
  whole bias row, and writes back the `[128, 128, 128]` block of the output at those columns. What it writes is that
  block of ONE function of the staged arrays — the kernel's arrangement `K` —, and the 32 blocks cover the output:
  column `l` lies in the block of point `l / 128`. So the output array ends holding `K` of the staged arrays.
-/
import proofs.«138772_j46651934769846_2_alg».proof.Proof.Gen.KernelIdeal.Value
import proofs.«138772_j46651934769846_2_alg».proof.Proof.Payload
import proofs.«138772_j46651934769846_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 grid points: the bucket words' window and the output's move along
    their column axis with the point; the tables' and the bias row's windows stay at block 0. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

theorem point_lt (t : Fin cfg0.N) : t.val < 32 := lt_of_lt_of_eq t.isLt N_0

/-- Column `q` of point `t`'s block is column `128 t + q` of the array. -/
def col (t : Fin cfg0.N) (q : Fin 128) : Fin 4096 :=
  ⟨t.val * 128 + q.val, by have := point_lt t; have := q.isLt; omega⟩

/-- The kernel's arrangement of the arrays the windows stage, as the region finds them. -/
def Kc (c : Dev nD) : S128x4096x128.Idx → EReal :=
  K (V m c main_v13 : S128x4096.Idx → BitVec 32) (V m c main_v16 : S128x128.Idx → EReal)
    (V m c main_v19 : S128x128.Idx → EReal) (V m c main_v20 : S1x128.Idx → EReal)

theorem Kc_apply (c : Dev nD) (p : Fin 128) (l : Fin 4096) (e : Fin 128) :
    Kc m c (ix3 p l e) = Kat (V m c main_v13 : S128x4096.Idx → BitVec 32) (V m c main_v16 : S128x128.Idx → EReal)
      (V m c main_v19 : S128x128.Idx → EReal) (V m c main_v20 : S1x128.Idx → EReal) p l e := rfl

/-! ## The input blocks read where the output's block says -/

theorem read_idx (c : Dev nD) (t : Fin cfg0.N) (p q : Fin 128) :
    iblk m c 0 t (ix2 p q) = (V m c main_v13 : S128x4096.Idx → BitVec 32) (ix2 p (col t q)) := by
  obtain ⟨e0, e1, -⟩ := idx_facts t
  show (V m c main_v13 : S128x4096.Idx → BitVec 32) (((cfg0.win 0).blk t).view.emb (ix2 p q)) = _
  have h : ((cfg0.win 0).blk t).view.emb (ix2 p q) = ix2 p (col t q) := by
    funext a; apply Fin.ext
    match a with
    | ⟨0, _⟩ => show win0_0.index t (0 : Fin 2) * 128 + 1 * p.val = p.val; omega
    | ⟨1, _⟩ => show win0_0.index t (1 : Fin 2) * 128 + 1 * q.val = t.val * 128 + q.val; omega
  rw [h]

theorem read_hi (c : Dev nD) (t : Fin cfg0.N) (k e : Fin 128) :
    iblk m c 1 t (ix2 k e) = (V m c main_v16 : S128x128.Idx → EReal) (ix2 k e) := by
  obtain ⟨-, -, e0, e1, -⟩ := idx_facts t
  show (V m c main_v16 : S128x128.Idx → EReal) (((cfg0.win 1).blk t).view.emb (ix2 k e)) = _
  have h : ((cfg0.win 1).blk t).view.emb (ix2 k e) = ix2 k e := by
    funext a; apply Fin.ext
    match a with
    | ⟨0, _⟩ => show win0_1.index t (0 : Fin 2) * 128 + 1 * k.val = k.val; omega
    | ⟨1, _⟩ => show win0_1.index t (1 : Fin 2) * 128 + 1 * e.val = e.val; omega
  rw [h]

theorem read_lo (c : Dev nD) (t : Fin cfg0.N) (k e : Fin 128) :
    iblk m c 2 t (ix2 k e) = (V m c main_v19 : S128x128.Idx → EReal) (ix2 k e) := by
  obtain ⟨-, -, -, -, e0, e1, -⟩ := idx_facts t
  show (V m c main_v19 : S128x128.Idx → EReal) (((cfg0.win 2).blk t).view.emb (ix2 k e)) = _
  have h : ((cfg0.win 2).blk t).view.emb (ix2 k e) = ix2 k e := by
    funext a; apply Fin.ext
    match a with
    | ⟨0, _⟩ => show win0_2.index t (0 : Fin 2) * 128 + 1 * k.val = k.val; omega
    | ⟨1, _⟩ => show win0_2.index t (1 : Fin 2) * 128 + 1 * e.val = e.val; omega
  rw [h]

theorem read_bias (c : Dev nD) (t : Fin cfg0.N) (e : Fin 128) :
    iblk m c 3 t (ix2 (0 : Fin 1) e) = (V m c main_v20 : S1x128.Idx → EReal) (ix2 (0 : Fin 1) e) := by
  obtain ⟨-, -, -, -, -, -, e0, e1, -⟩ := idx_facts t
  show (V m c main_v20 : S1x128.Idx → EReal) (((cfg0.win 3).blk t).view.emb (ix2 (0 : Fin 1) e)) = _
  have h : ((cfg0.win 3).blk t).view.emb (ix2 (0 : Fin 1) e) = ix2 (0 : Fin 1) e := by
    funext a; apply Fin.ext
    match a with
    | ⟨0, _⟩ => show win0_3.index t (0 : Fin 2) * 1 + 1 * 0 = 0; omega
    | ⟨1, _⟩ => show win0_3.index t (1 : Fin 2) * 128 + 1 * e.val = e.val; omega
  rw [h]

/-! ## What a point writes back -/

/-- WHAT POINT `t` WRITES BACK is block `t` of the kernel's arrangement of the staged arrays. -/
theorem flushed_eq (c : Dev nD) (t : Fin cfg0.N) :
    (dats m 0 c).flushed 4 t = ((cfg0.win 4).blk t).view.read (Elt Ideal) (Kc m c) := by
  rw [flushed4]
  unfold out0_4
  rw [View.canon_unit_zero hz3]
  simp only [View.ld_unit_zero (S := S128x128) hz2, View.ld_unit_zero (S := S1x128) hz2]
  funext j
  obtain ⟨p, q, e, rfl⟩ : ∃ (p q e : Fin 128), j = ix3 p q e := ⟨j 0, j 1, j 2, eq_ix3 j⟩
  show k0_pay1 (F := Ideal) (iblk m c 0 t) (iblk m c 1 t) (iblk m c 2 t) (iblk m c 3 t) (ix3 p q e)
    = Kc m c (((cfg0.win 4).blk t).view.emb (ix3 p q e))
  obtain ⟨-, -, -, -, -, -, -, -, e0, e1, e2⟩ := idx_facts t
  have h : ((cfg0.win 4).blk t).view.emb (ix3 p q e) = ix3 p (col t q) e := by
    funext a; apply Fin.ext
    match a with
    | ⟨0, _⟩ => show win0_4.index t (0 : Fin 3) * 128 + 1 * p.val = p.val; omega
    | ⟨1, _⟩ => show win0_4.index t (1 : Fin 3) * 128 + 1 * q.val = t.val * 128 + q.val; omega
    | ⟨2, _⟩ => show win0_4.index t (2 : Fin 3) * 128 + 1 * e.val = e.val; omega
  rw [h, Kc_apply]
  refine (pay_apply (iblk m c 0 t) (iblk m c 1 t) (iblk m c 2 t) (iblk m c 3 t) p q e).trans ?_
  unfold Kat
  rw [read_idx, read_bias]
  refine congrArg₂ (· + ·) (congrArg₂ (· + ·) ?_ ?_) rfl
  · exact Finset.sum_congr rfl fun k _ => by rw [read_hi]
  · exact Finset.sum_congr rfl fun k _ => by rw [read_lo]

/-! ## The blocks cover the array -/

/-- An index of the array is in point `t`'s block iff each coordinate is in the block's range on its axis. -/
theorem mem_blk (t : Fin cfg0.N) (i : S128x4096x128.Idx) :
    i ∈ ((cfg0.win 4).blk t).view.set ↔ ∀ a : Fin 3, win0_4.index t a * S128x128x128.size a ≤ (i a).val
      ∧ (i a).val < win0_4.index t a * S128x128x128.size a + S128x128x128.size a := by
  show i ∈ ((View.whole main_v21).slice (win0_4.rect t)).set ↔ _
  rw [View.set_slice_whole, Rect.mem_set_unit]
  exact Iff.rfl

/-- Every index of the output is in the block of the point its column falls to. -/
theorem cover (i : S128x4096x128.Idx) :
    ∃ t : Fin cfg0.N, (cfg0.win 4).flush t = true ∧ i ∈ ((cfg0.win 4).blk t).view.set := by
  have hi0 : (i 0).val < 128 := (i 0).isLt
  have hi1 : (i 1).val < 4096 := (i 1).isLt
  have hi2 : (i 2).val < 128 := (i 2).isLt
  have hN : (i 1).val / 128 < cfg0.N := by show _ < grid0.N; rw [N_0]; omega
  refine ⟨⟨(i 1).val / 128, hN⟩, flush0_4 _, ?_⟩
  rw [mem_blk]
  obtain ⟨-, -, -, -, -, -, -, -, e0, e1, e2⟩ := idx_facts ⟨(i 1).val / 128, hN⟩
  intro a
  match a with
  | ⟨0, _⟩ =>
    show win0_4.index ⟨(i 1).val / 128, hN⟩ (0 : Fin 3) * 128 ≤ (i 0).val
      ∧ (i 0).val < win0_4.index ⟨(i 1).val / 128, hN⟩ (0 : Fin 3) * 128 + 128
    omega
  | ⟨1, _⟩ =>
    show win0_4.index ⟨(i 1).val / 128, hN⟩ (1 : Fin 3) * 128 ≤ (i 1).val
      ∧ (i 1).val < win0_4.index ⟨(i 1).val / 128, hN⟩ (1 : Fin 3) * 128 + 128
    have e1' : win0_4.index ⟨(i 1).val / 128, hN⟩ (1 : Fin 3) = (i 1).val / 128 := e1
    omega
  | ⟨2, _⟩ =>
    show win0_4.index ⟨(i 1).val / 128, hN⟩ (2 : Fin 3) * 128 ≤ (i 2).val
      ∧ (i 2).val < win0_4.index ⟨(i 1).val / 128, hN⟩ (2 : Fin 3) * 128 + 128
    omega

/-! ## The array after the run -/

/-- THE OUTPUT ARRAY after the run is the kernel's arrangement of the staged arrays. -/
theorem final (c : Dev nD) : (dats m 0 c).arrAt 4 cfg0.N = Kc m c :=
  (dats m 0 c).arrAt_eq_of_cover 4 (Kc m c) (fun t _ => flushed_eq m c t) cover

/-- The kernel's run re-posted: the result array at the kernel's arrangement, the arguments unchanged. -/
theorem run : θ_run defs (onTc (τ := τ) (main (F := Ideal))) ⟨m, fun _ => 0, ρ⟩ fun r => ∀ c : Dev nD,
      r.2.mem ((c : Thread nD τ).loc main_v21) = Kc m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefSide.lean ====
/-
  The reference's result, read at one index.

  The reference clips the bucket words into `[0, 100]`, so the indexing `table[idx]` never wraps a negative word and
  never clamps: the row it reads is the word itself. Its result at `(p, l, e)` is therefore the transposed weight
  at row `idx[p, l]`, column `e` — the weight at `(e, idx[p, l])` — plus the bias at `e`.
-/
import proofs.«138772_j46651934769846_2_alg».proof.Proof.Gen.ReferenceIdeal.Read
import proofs.«138772_j46651934769846_2_alg».proof.Proof.LibOneHotSelect
import proofs.«138772_j46651934769846_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Lib.OneHotSelect Cert.Spec

/-- Every bucket word is clipped into `[0, 100]`: read signed it is the natural number it is read unsigned, and that
    is at most `100`. -/
theorem bucket_range (x1 : FVec Ideal S128x4096 .f32) (i : S128x4096.Idx) :
    (val_main_v13 (F := Ideal) x1 i).toNat ≤ 100
      ∧ (val_main_v13 (F := Ideal) x1 i).toInt = ((val_main_v13 (F := Ideal) x1 i).toNat : ℤ) := by
  rw [val_main_v13_apply, val_main_call0_v4_apply, val_main_call0_v3_apply, val_main_c_3_apply,
    val_main_call0_v2_apply, val_main_call0_v1_apply, val_main_call0_v0_apply, val_main_c_2_apply]
  exact clip_range 100#32 _ (by decide)

/-- A word that is not negative is left alone by the wrap-around of negative positions. -/
theorem wrap_of_nonneg (w n : BitVec 32) (h : w.toInt = (w.toNat : ℤ)) :
    Scalar.select (IntOp.cmpi .slt w 0#32) (IntOp.addi w n) w = w := by
  have hs : w.slt 0#32 = false := by
    have h0 : (0#32 : BitVec 32).toInt = 0 := by decide
    simp only [BitVec.slt, h, h0, decide_eq_false_iff_not, not_lt]
    exact Int.natCast_nonneg _
  show Scalar.select (BitVec.ofBool (w.slt 0#32)) (IntOp.addi w n) w = w
  rw [hs]
  exact select_zero _ _

/-- The start word the gather reads at `(p, l, 0)` is bucket word `(p, l)`. -/
theorem start_word (x1 : FVec Ideal S128x4096 .f32) (p : Fin 128) (l : Fin 4096) :
    val_main_v20 (F := Ideal) x1 (ix3 p l (0 : Fin 1)) = val_main_v13 (F := Ideal) x1 (ix2 p l) := by
  have hi : idx_main_v20 (ix3 p l (0 : Fin 1)) = ix2 p l :=
    funext fun a => Fin.ext (by match a with | ⟨0, _⟩ => rfl | ⟨1, _⟩ => rfl)
  rw [val_main_v20_apply, hi, val_main_v19_apply, val_main_v16_apply, val_main_v18_apply, val_main_v15_apply,
    val_main_c_4_apply]
  exact wrap_of_nonneg _ _ (bucket_range x1 (ix2 p l)).2

/-- THE REFERENCE AT `(p, l, e)`. -/
theorem ref_apply (x1 : FVec Ideal S128x4096 .f32) (x2 : FVec Ideal S128x101 .f32) (x3 : FVec Ideal S128 .f32)
    (p : Fin 128) (l : Fin 4096) (e : Fin 128) :
    val_main_v24 (F := Ideal) x1 x2 x3 (ix3 p l e) = Gat (val_main_v13 (F := Ideal) x1) x2 x3 p l e := by
  have hb : idx_main_v22 (idx_main_v23 (ix3 p l e)) = ix1 e :=
    funext fun a => Fin.ext (by match a with | ⟨0, _⟩ => rfl)
  obtain ⟨hle, hint⟩ := bucket_range x1 (ix2 p l)
  have hbias : val_main_v23 (F := Ideal) x3 (ix3 p l e) = x3 (ix1 e) := by
    rw [val_main_v23_apply, val_main_v22_apply, hb]
  have hrow : val_main_v21 (F := Ideal) x1 x2 (ix3 p l e) = x2 (ix2 e (row (val_main_v13 (F := Ideal) x1 (ix2 p l)))) := by
    unfold val_main_v21
    show Host.gather (rowsDims 101 128 128 4096 gather_S101x128_S128x4096x1_S128x4096x128_2_0_n_n_0_2_1128_wf)
      (val_main_v14 (F := Ideal) x2) (val_main_v20 (F := Ideal) x1) (ix3 p l e) = _
    refine (gather_rows3_apply (N := 101) (D := 128) (A := 128) (B := 4096) (by norm_num)
      gather_S101x128_S128x4096x1_S128x4096x128_2_0_n_n_0_2_1128_wf (val_main_v14 (F := Ideal) x2)
      (val_main_v20 (F := Ideal) x1) p l e).trans ?_
    refine (val_main_v14_apply (F := Ideal) x2 _).trans ?_
    refine congrArg x2 (funext fun a => Fin.ext ?_)
    match a with
    | ⟨0, _⟩ => rfl
    | ⟨1, _⟩ =>
      show min (val_main_v20 (F := Ideal) x1 (ix3 p l (0 : Fin 1))).toInt.toNat (101 - 1)
        = min (val_main_v13 (F := Ideal) x1 (ix2 p l)).toNat 100
      rw [start_word, hint, Int.toNat_natCast]
  show val_main_v21 (F := Ideal) x1 x2 (ix3 p l e) + val_main_v23 (F := Ideal) x3 (ix3 p l e) = _
  rw [hbias, hrow]
  rfl

/-- THE REFERENCE'S RESULT is the specified function of the bucket words, the weight and the bias. -/
theorem ref_eq (x1 : FVec Ideal S128x4096 .f32) (x2 : FVec Ideal S128x101 .f32) (x3 : FVec Ideal S128 .f32) :
    val_main_v24 (F := Ideal) x1 x2 x3 = G (val_main_v13 (F := Ideal) x1) x2 x3 := by
  funext i
  obtain ⟨p, l, e, rfl⟩ : ∃ (p : Fin 128) (l : Fin 4096) (e : Fin 128), i = ix3 p l e := ⟨i 0, i 1, i 2, eq_ix3 i⟩
  rw [ref_apply, G_apply]

end Cert.ReferenceIdeal.RefValue

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.Finite.lean ====
/-
  The precondition, read back: every entry of the weight is a real number.

  The precondition is the conjunction of three `all`-reductions, one per float argument, of the element test
  `|x| < +∞`. The middle one is the weight's; an `all` that holds, holds at every index; and an extended real whose
  absolute value is below `+∞` is a real number.
-/
import proofs.«138772_j46651934769846_2_alg».proof.Pre_finite_inputs
import proofs.«138772_j46651934769846_2_alg».proof.Proof.LibFiniteEReal
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx

instance : Subsingleton S_.Idx := ⟨fun _ _ => funext fun d => d.elim0⟩

variable [Facts]

/-- Under the precondition every entry of the weight is a real number. -/
theorem weight_real (a0 : IVec S128x4096 32) (a1 : FVec Ideal S128x4096 .f32) (a2 : FVec Ideal S128x101 .f32)
    (a3 : FVec Ideal S128 .f32) (h : fn (F := Ideal) a0 a1 a2 a3 = fun _ => 1#1) (i : S128x101.Idx) :
    ∃ r : ℝ, a2 i = (r : EReal) := by
  have h0 := congrFun h ix0
  dsimp only [fn] at h0
  have h0' : IntOp.andi (IntOp.andi _ _) _ = 1#1 := h0
  obtain ⟨h12, -⟩ := IntOp.andi_eq_one.1 h0'
  obtain ⟨-, h2⟩ := IntOp.andi_eq_one.1 h12
  have he := Host.reduce_andi_all _ _ _ _ ix0 h2 i
  exact Cert.Lib.FiniteEReal.real_of_abs_lt (a2 i) he

end Cert.Pre_finite_inputs.Finite

end
-- ==== Proof.lean ====
/-
  The proof of `Cert.Claim`: an embedding lookup `W[:, idx] + b` computed two ways.

  Both programs turn the timestamps into bucket words `idx` in `[0, 100]` by the same chain of whole-array operations.
  The reference then gathers row `idx[p, l]` of the transposed weight and adds the bias: `W[e, idx[p, l]] + b[e]`.
  The kernel pads the transposed weight with 27 zero rows, splits it as `hi = pad` and `lo = pad - pad` (a residual of
  a change of float format, which is the identity on extended reals) and, per block of 128 columns, multiplies the
  128-lane one-hot rows of `idx` with `hi` and with `lo`, adds the two products and the bias.

  On the extended reals the one-hot product with `hi` IS the selected entry (`0 * x = 0` for every `x`), and the
  product with `lo` is `0` because the weight's entries are real numbers — this is where the precondition is used.

  The modules: `Spec` (the function and the law), `Payload` (the kernel body's value at an index), `Windows` (what
  the kernel's windows stage), `Cover` (from per-block write-backs to the whole output), `RefSide` (the reference's
  result at an index), `Finite` (the precondition read back).
-/
import proofs.«138772_j46651934769846_2_alg».proof.Defs
import proofs.«138772_j46651934769846_2_alg».proof.Proof.Gen.Kernel
import proofs.«138772_j46651934769846_2_alg».proof.Proof.Gen.Kernel.Skeleton
import proofs.«138772_j46651934769846_2_alg».proof.Proof.Gen.Kernel.Launch
import proofs.«138772_j46651934769846_2_alg».proof.Proof.Gen.Kernel.Points
import proofs.«138772_j46651934769846_2_alg».proof.Proof.Gen.Kernel.Frame
import proofs.«138772_j46651934769846_2_alg».proof.Proof.Gen.KernelIdeal
import proofs.«138772_j46651934769846_2_alg».proof.Proof.Gen.KernelIdeal.Skeleton
import proofs.«138772_j46651934769846_2_alg».proof.Proof.Gen.KernelIdeal.Launch
import proofs.«138772_j46651934769846_2_alg».proof.Proof.Gen.KernelIdeal.Points
import proofs.«138772_j46651934769846_2_alg».proof.Proof.Gen.KernelIdeal.Frame
import proofs.«138772_j46651934769846_2_alg».proof.Proof.Gen.ReferenceIdeal
import proofs.«138772_j46651934769846_2_alg».proof.Proof.Gen.Pre_finite_inputs
import proofs.«138772_j46651934769846_2_alg».proof.Proof.Gen.KernelIdeal.Value
import proofs.«138772_j46651934769846_2_alg».proof.Proof.Gen.ReferenceIdeal.Run
import proofs.«138772_j46651934769846_2_alg».proof.Proof.Gen.ReferenceIdeal.Read
import proofs.«138772_j46651934769846_2_alg».proof.Proof.Spec
import proofs.«138772_j46651934769846_2_alg».proof.Proof.Windows
import proofs.«138772_j46651934769846_2_alg».proof.Proof.Cover
import proofs.«138772_j46651934769846_2_alg».proof.Proof.RefSide
import proofs.«138772_j46651934769846_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Spec

/-! ## The frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The kernel's result is the specified function -/

section
open Cert.KernelIdeal Cert.KernelIdeal.Gen

/-- Under the precondition, the kernel's arrangement of what its windows stage is `W[e, idx[p, l]] + b[e]`, with
    `idx` the reference's own bucket words of the timestamps. -/
theorem kernel_value (m : (ℓ : Loc nD τ sig) → Buf (Elt Ideal) ℓ) (hpre : Cert.Pre_KernelIdeal m) (c : Dev nD) :
    Cert.KernelIdeal.Whole.Kc m c
      = G (Cert.ReferenceIdeal.Read.val_main_v13 (F := Ideal) (m ((c.tc : Thread nD τ).loc main_arg1)))
          (m ((c.tc : Thread nD τ).loc main_arg2)) (m ((c.tc : Thread nD τ).loc main_arg3)) := by
  have hidx : ∀ i, ((V m c main_v13 : S128x4096.Idx → BitVec 32) i).toNat ≤ 100 := fun i => by
    rw [Cert.KernelIdeal.Staged.V_idx]
    exact (Cert.ReferenceIdeal.RefValue.bucket_range _ i).1
  have h := K_eq_G (V m c main_v13 : S128x4096.Idx → BitVec 32) (V m c main_v16 : S128x128.Idx → EReal)
    (V m c main_v19 : S128x128.Idx → EReal) (V m c main_v20 : S1x128.Idx → EReal)
    (m ((c.tc : Thread nD τ).loc main_arg2)) (m ((c.tc : Thread nD τ).loc main_arg3)) hidx
    (fun k e hk => Cert.KernelIdeal.Staged.hi_apply m c k e hk)
    (fun k e hk => Cert.KernelIdeal.Staged.lo_apply m c k e hk
      (Cert.Pre_finite_inputs.Finite.weight_real _ _ _ _ (hpre c) (ix2 e (⟨k.val, hk⟩ : Fin 101))))
    (fun e => Cert.KernelIdeal.Staged.bias_apply m c e)
  unfold Cert.KernelIdeal.Whole.Kc
  rw [h, Cert.KernelIdeal.Staged.V_idx]

end

/-! ## The claims -/

/-- From memories agreeing on the arguments both programs end with `W[e, idx[p, l]] + b[e]` in their result. -/
theorem algebraic : Cert.algebraic_KernelIdeal_ReferenceIdeal := by
  intro m ρ m' ρ' hpre hagree
  refine ⟨fun c => G (Cert.ReferenceIdeal.Read.val_main_v13 (F := Ideal)
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (kernel_value m hpre c), (h c).2⟩) (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.ReferenceIdeal.RefValue.ref_eq, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
